-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x8 : Shape := ⟨2, ![1600000, 8]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64 .f32) (main_arg8 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x8 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x8 : Shape := ⟨2, ![1600000, 8]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 47
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x8, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x8 : Shape := ⟨2, ![1600000, 8]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x8, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S64x64, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000, .f32⟩
  | .hbm, ⟨40, _⟩ => ⟨S100000x1, .f32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S64x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_c_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result named.

  The program is four stretches in order: host operations, the first launch, host operations, the second launch.
  The buffer contents at each boundary are a fold from the launch memory: a host stretch applies its operations, a
  launch replaces its windows' arrays by what its write-backs leave and keeps every other buffer. Every weakly
  fair execution terminates without a fault; in the final state every buffer outside the kernels' scratch memory
  holds the last boundary's contents — in particular the result buffer — and the nine argument arrays are as launched.
-/
import proofs.«107074_j85873576117016_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents (what the second launch's write-backs leave) and the argument arrays as launched: the four
    segments in order, the last thread state read against the final state buffer by buffer. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.SageRows.lean ====
/-
  The two node updates of a two-layer sum-aggregating graph network, one node at a time.

  A node carries a row of 64 features. Given the row `a` of summed neighbour features and the node's own row `x`,
  the affine update is  a · Wl + b + x · Wr  (Wl, Wr 64 × 64, b a row of 64).  The first layer then clamps
  every entry at zero and divides the row by the larger of its Euclidean norm and a small positive constant;
  the second layer is the affine update alone. Everything is over the extended reals with exact operations, so
  the sums are finite sums and the quotient is the total division of the extended reals.

  The whole-array forms apply the row update to every row of a 100000 × 64 array.
-/
import Idealize.ShloMosaic.PureOps.Ideal
import Idealize.ShloMosaic.Lib.ValueIdx

noncomputable section

namespace Cert.Sage

open Idealize.ShloMosaic Idealize.ShloMosaic.ValueIdx
open scoped BigOperators

/-- Entry `q` of the affine update of one node:  (Σₖ aₖ · Wl[k,q] + b[q]) + Σₖ xₖ · Wr[k,q]. -/
def lin (a x : Fin 64 → EReal) (wl wr : Fin 64 → Fin 64 → EReal) (b : Fin 64 → EReal) (q : Fin 64) : EReal :=
  ((∑ k : Fin 64, a k * wl k q) + b q) + ∑ k : Fin 64, x k * wr k q

/-- The value the zero word denotes (it is 0; it is never evaluated here). -/
abbrev zeroWord : EReal := Ideal.ofBits .f32 0x00000000#32
/-- The small positive constant under the norm (the same word on both sides; never evaluated). -/
abbrev epsWord : EReal := Ideal.ofBits .f32 0x2B8CBCCC#32

/-- Entry `q` of a row clamped at zero and divided by max(‖clamped row‖₂, ε). -/
def act (h : Fin 64 → EReal) (q : Fin 64) : EReal :=
  Ideal.div (max (h q) zeroWord)
    (max (Ideal.sqrt (∑ j : Fin 64, max (h j) zeroWord * max (h j) zeroWord)) epsWord)

/-- The node arrays and the weight matrices. -/
abbrev Nodes : Shape := ⟨2, ![100000, 64]⟩
abbrev Wts : Shape := ⟨2, ![64, 64]⟩

/-- Row `r` of a node array. -/
def rowOf (A : Nodes.Idx → EReal) (r : Fin 100000) : Fin 64 → EReal := fun k => A (ix2 r k)
/-- A weight matrix by its two coordinates. -/
def matOf (W : Wts.Idx → EReal) : Fin 64 → Fin 64 → EReal := fun k q => W (ix2 k q)

/-- The second layer on whole arrays: the affine update of every row. -/
def layerLin (agg x : Nodes.Idx → EReal) (wl wr : Wts.Idx → EReal) (b : Fin 64 → EReal) : Nodes.Idx → EReal :=
  fun i => lin (rowOf agg (i 0)) (rowOf x (i 0)) (matOf wl) (matOf wr) b (i 1)

/-- The first layer on whole arrays: affine update, clamp, normalise, row by row. -/
def layerAct (agg x : Nodes.Idx → EReal) (wl wr : Wts.Idx → EReal) (b : Fin 64 → EReal) : Nodes.Idx → EReal :=
  fun i => act (lin (rowOf agg (i 0)) (rowOf x (i 0)) (matOf wl) (matOf wr) b) (i 1)

end Cert.Sage

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KernelPayload.lean ====
/-
  What the two kernel bodies store, read at one entry of a block.

  A block is 10000 consecutive rows. Entry (p, q) of the stored value depends only on row p of the two loaded
  blocks, on the two weight matrices and on the bias row: it is the node update of that row — the affine update
  followed by clamp-and-normalise in the first kernel, the affine update alone in the second. The matrix
  products into a zero accumulator are finite sums over the 64 features, the row broadcast of the bias reads its
  one row, the lane sum of squares is a finite sum over the row, and the column kept by the sum is read back at
  its row.
-/
import proofs.«107074_j85873576117016_1_alg».proof.Proof.Gen.KernelIdeal.Skeleton
import proofs.«107074_j85873576117016_1_alg».proof.Proof.SageRows
import proofs.«107074_j85873576117016_1_alg».proof.Proof.LibPlainDot
import proofs.«107074_j85873576117016_1_alg».proof.Proof.LibKeepdims
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Sage
open scoped BigOperators

/-- The printed product record is the plain [a,c] × [c,b] one. -/
theorem dot_eq : dot_S10000x64_S64x64_S10000x64_1_0_0_1_n_n
    = Cert.Lib.PlainDot.dims (a := 10000) (c := 64) (b := 64) dot_S10000x64_S64x64_S10000x64_1_0_0_1_n_n_wf := rfl

/-- The affine part of either body at entry (p, q): the affine update of row p. -/
theorem affine_apply (a x : FVec Ideal S10000x64 .f32) (wl wr : FVec Ideal S64x64 .f32) (b : FVec Ideal S1x64 .f32)
    (p : Fin 10000) (q : Fin 64) :
    addf (addf (matmul dot_S10000x64_S64x64_S10000x64_1_0_0_1_n_n none a wl (constant S10000x64 .f32 0x00000000#32))
        (broadcastTo S10000x64 b broadcasts_S1x64_S10000x64))
      (matmul dot_S10000x64_S64x64_S10000x64_1_0_0_1_n_n none x wr (constant S10000x64 .f32 0x00000000#32)) (ix2 p q)
    = lin (fun k => a (ix2 p k)) (fun k => x (ix2 p k)) (fun k q => wl (ix2 k q)) (fun k q => wr (ix2 k q))
        (fun q => b (ix2 (0 : Fin 1) q)) q := by
  rw [dot_eq]
  show (matmul _ none a wl _ (ix2 p q) + broadcastTo S10000x64 b broadcasts_S1x64_S10000x64 (ix2 p q))
      + matmul _ none x wr _ (ix2 p q) = _
  rw [Cert.Lib.PlainDot.matmul_zero_apply, Cert.Lib.PlainDot.matmul_zero_apply,
    broadcastTo_1b_ab_apply]
  rfl

/-- The second body's stored value at entry (p, q): the affine update of row p. -/
theorem pay1_apply (a x : FVec Ideal S10000x64 .f32) (wl wr : FVec Ideal S64x64 .f32) (b : FVec Ideal S1x64 .f32)
    (p : Fin 10000) (q : Fin 64) :
    k1_pay1 (F := Ideal) a x wl wr b (ix2 p q)
      = lin (fun k => a (ix2 p k)) (fun k => x (ix2 p k)) (fun k q => wl (ix2 k q)) (fun k q => wr (ix2 k q))
          (fun q => b (ix2 (0 : Fin 1) q)) q := by
  unfold k1_pay1
  simp only [shapeCast_self]
  exact affine_apply a x wl wr b p q

/-- Summing along a row: the index the sum inserts at row p, position k, is (p, k). -/
theorem lift_row (p : Fin 10000) (k : Fin 64) : reduces_S10000x64_S10000.lift (ix1 p) k = ix2 p k := by
  funext ax; apply Fin.ext
  match ax with
  | ⟨0, _⟩ => rfl
  | ⟨1, _⟩ => rfl

/-- The lane sum of a block at row p is the finite sum over the row. -/
theorem rowSum_apply (w : FVec Ideal S10000x64 .f32) (p : Fin 10000) :
    multiReduction .add [1] S10000 w 0x00000000#32 reduces_S10000x64_S10000 (.inl rfl) rfl (ix1 p)
      = ∑ k : Fin 64, w (ix2 p k) :=
  (Ideal.multiReduction_add_single w 0x00000000#32 reduces_S10000x64_S10000 (.inl rfl) rfl (ix1 p)).trans
    (Finset.sum_congr rfl fun k _ => congrArg w (lift_row p k))

/-- Clamp at zero and divide by max(norm, ε), at entry (p, q) of a block: the row operation on row p. -/
theorem normalise_apply (v : FVec Ideal S10000x64 .f32) (p : Fin 10000) (q : Fin 64) :
    divf (maximumf v (broadcast S10000x64 (Scalar.ofBits (F := Ideal) .f32 0x00000000#32)))
      (broadcastTo S10000x64
        (maximumf (sqrt (shapeCast S10000x1
            (multiReduction .add [1] S10000
              (mulf (maximumf v (broadcast S10000x64 (Scalar.ofBits (F := Ideal) .f32 0x00000000#32)))
                    (maximumf v (broadcast S10000x64 (Scalar.ofBits (F := Ideal) .f32 0x00000000#32))))
              0x00000000#32 reduces_S10000x64_S10000 (.inl rfl) rfl)
            shapeCasts_S10000_S10000x1))
          (broadcast S10000x1 (Scalar.ofBits (F := Ideal) .f32 0x2B8CBCCC#32)))
        broadcasts_S10000x1_S10000x64) (ix2 p q)
    = act (fun k => v (ix2 p k)) q := by
  show Ideal.div _ (broadcastTo S10000x64 _ broadcasts_S10000x1_S10000x64 (ix2 p q)) = _
  rw [Cert.Lib.Keepdims.bcastCol_apply]
  show Ideal.div _ (max (Ideal.sqrt (shapeCast S10000x1 _ shapeCasts_S10000_S10000x1 (ix2 p (0 : Fin 1)))) _) = _
  rw [Cert.Lib.Keepdims.col_apply, rowSum_apply]
  rfl

/-- The first body's stored value at entry (p, q): the affine update of row p, clamped and normalised. -/
theorem pay0_apply (a x : FVec Ideal S10000x64 .f32) (wl wr : FVec Ideal S64x64 .f32) (b : FVec Ideal S1x64 .f32)
    (p : Fin 10000) (q : Fin 64) :
    k0_pay1 (F := Ideal) a x wl wr b (ix2 p q)
      = act (lin (fun k => a (ix2 p k)) (fun k => x (ix2 p k)) (fun k q => wl (ix2 k q)) (fun k q => wr (ix2 k q))
          (fun q => b (ix2 (0 : Fin 1) q))) q := by
  unfold k0_pay1
  simp only [shapeCast_self]
  refine (normalise_apply _ p q).trans ?_
  exact congrArg (fun h => act h q) (funext fun k => affine_apply a x wl wr b p k)

end Cert.KernelIdeal.Payload

end
-- ==== Proof.KernelArrays.lean ====
/-
  From blocks to whole arrays, for each of the two kernel launches.

  The grid has ten points; at point t every row window holds rows 10000·t … 10000·t + 9999 of its array and the
  weight and bias windows hold their whole arrays. Entry (p, q) of what point t writes back is therefore the node
  update of row 10000·t + p of the arrays the launch finds, and since the ten row blocks tile the 100000 rows, the
  result array after the launch is the node update of every row of those arrays.
-/
import proofs.«107074_j85873576117016_1_alg».proof.Proof.Gen.KernelIdeal.Frame
import proofs.«107074_j85873576117016_1_alg».proof.Proof.KernelPayload
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The node update of one row as the first body computes it, from the body's loaded blocks, when those blocks
    hold row `i 0` of the arrays `A`, `X`, the matrices `WL`, `WR` and the bias row `B`. -/
theorem act_block (A X : Nodes.Idx → EReal) (WL WR : Wts.Idx → EReal) (B : Fin 64 → EReal)
    (a x : FVec Ideal S10000x64 .f32) (wl wr : FVec Ideal S64x64 .f32) (b : FVec Ideal S1x64 .f32)
    (p : Fin 10000) (q : Fin 64) (i : Nodes.Idx)
    (ha : ∀ k, a (ix2 p k) = A (ix2 (i 0) k)) (hx : ∀ k, x (ix2 p k) = X (ix2 (i 0) k))
    (hwl : ∀ k q, wl (ix2 k q) = WL (ix2 k q)) (hwr : ∀ k q, wr (ix2 k q) = WR (ix2 k q))
    (hb : ∀ q, b (ix2 (0 : Fin 1) q) = B q) (hq : i 1 = q) :
    k0_pay1 (F := Ideal) a x wl wr b (ix2 p q) = layerAct A X WL WR B i := by
  rw [Payload.pay0_apply]
  unfold layerAct rowOf matOf
  rw [hq]
  simp only [ha, hx, hwl, hwr, hb]

/-- The same for the second body: the affine update alone. -/
theorem lin_block (A X : Nodes.Idx → EReal) (WL WR : Wts.Idx → EReal) (B : Fin 64 → EReal)
    (a x : FVec Ideal S10000x64 .f32) (wl wr : FVec Ideal S64x64 .f32) (b : FVec Ideal S1x64 .f32)
    (p : Fin 10000) (q : Fin 64) (i : Nodes.Idx)
    (ha : ∀ k, a (ix2 p k) = A (ix2 (i 0) k)) (hx : ∀ k, x (ix2 p k) = X (ix2 (i 0) k))
    (hwl : ∀ k q, wl (ix2 k q) = WL (ix2 k q)) (hwr : ∀ k q, wr (ix2 k q) = WR (ix2 k q))
    (hb : ∀ q, b (ix2 (0 : Fin 1) q) = B q) (hq : i 1 = q) :
    k1_pay1 (F := Ideal) a x wl wr b (ix2 p q) = layerLin A X WL WR B i := by
  rw [Payload.pay1_apply]
  unfold layerLin rowOf matOf
  rw [hq]
  simp only [ha, hx, hwl, hwr, hb]

/-! ## The first launch -/

/-- The block numbers over the grid: the three row windows are at block t, the others at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t, entry (p, k), is the summed-neighbour array at row 10000·t + p. -/
theorem blk0_0 (c : Dev nD) (t : Fin cfg0.N) (p : Fin 10000) (k : Fin 64) (r : Fin 100000)
    (hr : r.val = t.val * 10000 + p.val) :
    (iblk0 V c 0 t : Vec Ideal S10000x64 .f32) (ix2 p k) = (V c main_v13 : S100000x64.Idx → EReal) (ix2 r k) := by
  unfold iblk0
  rw [View.read_apply]
  show (V c main_v13 : S100000x64.Idx → EReal) _ = _
  refine congrArg (V c main_v13 : S100000x64.Idx → EReal) ?_
  funext a
  apply Fin.ext
  obtain ⟨e0, e1, -⟩ := idx0 t
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Window 1's block at point t, entry (p, k), is the node array at row 10000·t + p. -/
theorem blk0_1 (c : Dev nD) (t : Fin cfg0.N) (p : Fin 10000) (k : Fin 64) (r : Fin 100000)
    (hr : r.val = t.val * 10000 + p.val) :
    (iblk0 V c 1 t : Vec Ideal S10000x64 .f32) (ix2 p k) = (V c main_arg0 : S100000x64.Idx → EReal) (ix2 r k) := by
  unfold iblk0
  rw [View.read_apply]
  show (V c main_arg0 : S100000x64.Idx → EReal) _ = _
  refine congrArg (V c main_arg0 : S100000x64.Idx → EReal) ?_
  funext a
  apply Fin.ext
  obtain ⟨-, -, e0, e1, -⟩ := idx0 t
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- Window 2's block at every point is the whole matrix applied to the summed neighbours in the first layer. -/
theorem blk0_2 (c : Dev nD) (t : Fin cfg0.N) (k q : Fin 64) :
    (iblk0 V c 2 t : Vec Ideal S64x64 .f32) (ix2 k q) = (V c main_v14 : S64x64.Idx → EReal) (ix2 k q) := by
  unfold iblk0
  rw [View.read_apply]
  show (V c main_v14 : S64x64.Idx → EReal) _ = _
  refine congrArg (V c main_v14 : S64x64.Idx → EReal) ?_
  funext a
  apply Fin.ext
  obtain ⟨-, -, -, -, e0, e1, -⟩ := idx0 t
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Window 3's block at every point is the first layer's whole bias row. -/
theorem blk0_3 (c : Dev nD) (t : Fin cfg0.N) (q : Fin 64) :
    (iblk0 V c 3 t : Vec Ideal S1x64 .f32) (ix2 (0 : Fin 1) q) = (V c main_v16 : S1x64.Idx → EReal) (ix2 (0 : Fin 1) q) := by
  unfold iblk0
  rw [View.read_apply]
  show (V c main_v16 : S1x64.Idx → EReal) _ = _
  refine congrArg (V c main_v16 : S1x64.Idx → EReal) ?_
  funext a
  apply Fin.ext
  obtain ⟨-, -, -, -, -, -, e0, e1, -⟩ := idx0 t
  match a with
  | ⟨0, _⟩ => show win0_3.index t (0 : Fin 2) * 1 + 1 * 0 = 0; rw [e0]
  | ⟨1, _⟩ => show win0_3.index t (1 : Fin 2) * 64 + 1 * q.val = q.val; rw [e1]; omega

/-- Window 4's block at every point is the whole matrix applied to the node's own row in the first layer. -/
theorem blk0_4 (c : Dev nD) (t : Fin cfg0.N) (k q : Fin 64) :
    (iblk0 V c 4 t : Vec Ideal S64x64 .f32) (ix2 k q) = (V c main_v15 : S64x64.Idx → EReal) (ix2 k q) := by
  unfold iblk0
  rw [View.read_apply]
  show (V c main_v15 : S64x64.Idx → EReal) _ = _
  refine congrArg (V c main_v15 : S64x64.Idx → EReal) ?_
  funext a
  apply Fin.ext
  obtain ⟨-, -, -, -, -, -, -, -, e0, e1, -⟩ := idx0 t
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- The first layer of the arrays the first launch finds: what its result array will hold. -/
def G0 (c : Dev nD) : S100000x64.Idx → EReal :=
  layerAct (V c main_v13 : S100000x64.Idx → EReal) (V c main_arg0 : S100000x64.Idx → EReal)
    (V c main_v14 : S64x64.Idx → EReal) (V c main_v15 : S64x64.Idx → EReal)
    (fun q => (V c main_v16 : S1x64.Idx → EReal) (ix2 (0 : Fin 1) q))

/-- What point t writes back is block t of the first layer of the arrays the launch finds. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e0, e1⟩ := idx0 t
  have h0 : ((((cfg0.win 5).blk t).view.emb (ix2 p q) : S100000x64.Idx) 0).val = t.val * 10000 + p.val := by
    show win0_5.index t (0 : Fin 2) * 10000 + 1 * p.val = _; rw [e0]; omega
  have h1 : (((cfg0.win 5).blk t).view.emb (ix2 p q) : S100000x64.Idx) 1 = q := by
    apply Fin.ext; show win0_5.index t (1 : Fin 2) * 64 + 1 * q.val = q.val; rw [e1]; omega
  show k0_pay1 (F := Ideal) (iblk0 V c 0 t) (iblk0 V c 1 t) (iblk0 V c 2 t) (iblk0 V c 4 t) (iblk0 V c 3 t) (ix2 p q)
    = layerAct (V c main_v13 : S100000x64.Idx → EReal) (V c main_arg0 : S100000x64.Idx → EReal)
        (V c main_v14 : S64x64.Idx → EReal) (V c main_v15 : S64x64.Idx → EReal)
        (fun q => (V c main_v16 : S1x64.Idx → EReal) (ix2 (0 : Fin 1) q)) (((cfg0.win 5).blk t).view.emb (ix2 p q))
  exact act_block (V c main_v13 : S100000x64.Idx → EReal) (V c main_arg0 : S100000x64.Idx → EReal)
    (V c main_v14 : S64x64.Idx → EReal) (V c main_v15 : S64x64.Idx → EReal)
    (fun q => (V c main_v16 : S1x64.Idx → EReal) (ix2 (0 : Fin 1) q)) (iblk0 V c 0 t) (iblk0 V c 1 t) (iblk0 V c 2 t) (iblk0 V c 4 t) (iblk0 V c 3 t) p q
    (((cfg0.win 5).blk t).view.emb (ix2 p q))
    (fun k => blk0_0 V c t p k _ h0) (fun k => blk0_1 V c t p k _ h0)
    (fun k q => blk0_2 V c t k q) (fun k q => blk0_4 V c t k q) (fun q => blk0_3 V c t q) h1

/-- An index is in point t's block of the result array iff its coordinates are in the block's ranges. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v17).slice (win0_5.rect t)).set ↔ _
  rw [View.set_slice_whole, Rect.mem_set_unit]
  exact Iff.rfl

/-- After the first launch its result array is the first layer of the arrays it found: the ten row blocks tile it. -/
theorem final0 (c : Dev nD) : (dat0 V c).arrAt 5 cfg0.N = G0 V c :=
  (dat0 V c).arrAt_eq_of_cover 5 (G0 V c) (fun t _ => flushed0_eq V c t) fun i => by
    have hi0 : (i 0).val < 100000 := (i 0).isLt
    have hi1 : (i 1).val < 64 := (i 1).isLt
    have hN : cfg0.N = 10 := N_0
    refine ⟨⟨(i 0).val / 10000, by rw [hN]; omega⟩, flush0_5 _, ?_⟩
    rw [mem_blk0]
    obtain ⟨-, -, -, -, -, -, -, -, -, -, e0, e1⟩ := idx0 ⟨(i 0).val / 10000, by rw [hN]; omega⟩
    intro a
    match a with
    | ⟨0, _⟩ =>
      show win0_5.index _ (0 : Fin 2) * 10000 ≤ (i 0).val ∧ (i 0).val < win0_5.index _ (0 : Fin 2) * 10000 + 10000
      rw [e0]; show (i 0).val / 10000 * 10000 ≤ (i 0).val ∧ (i 0).val < (i 0).val / 10000 * 10000 + 10000; omega
    | ⟨1, _⟩ =>
      show win0_5.index _ (1 : Fin 2) * 64 ≤ (i 1).val ∧ (i 1).val < win0_5.index _ (1 : Fin 2) * 64 + 64
      rw [e1]; omega

/-! ## The second launch -/

/-- The block numbers over the grid: the three row windows are at block t, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t, entry (p, k), is the summed-neighbour array of the second layer at row 10000·t + p. -/
theorem blk1_0 (c : Dev nD) (t : Fin cfg1.N) (p : Fin 10000) (k : Fin 64) (r : Fin 100000)
    (hr : r.val = t.val * 10000 + p.val) :
    (iblk1 V c 0 t : Vec Ideal S10000x64 .f32) (ix2 p k) = (V c main_v27 : S100000x64.Idx → EReal) (ix2 r k) := by
  unfold iblk1
  rw [View.read_apply]
  show (V c main_v27 : S100000x64.Idx → EReal) _ = _
  refine congrArg (V c main_v27 : S100000x64.Idx → EReal) ?_
  funext a
  apply Fin.ext
  obtain ⟨e0, e1, -⟩ := idx1 t
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Window 1's block at point t, entry (p, k), is the first layer's result array at row 10000·t + p. -/
theorem blk1_1 (c : Dev nD) (t : Fin cfg1.N) (p : Fin 10000) (k : Fin 64) (r : Fin 100000)
    (hr : r.val = t.val * 10000 + p.val) :
    (iblk1 V c 1 t : Vec Ideal S10000x64 .f32) (ix2 p k) = (V c main_v17 : S100000x64.Idx → EReal) (ix2 r k) := by
  unfold iblk1
  rw [View.read_apply]
  show (V c main_v17 : S100000x64.Idx → EReal) _ = _
  refine congrArg (V c main_v17 : S100000x64.Idx → EReal) ?_
  funext a
  apply Fin.ext
  obtain ⟨-, -, e0, e1, -⟩ := idx1 t
  match a with
  | ⟨0, _⟩ => show win1_1.index t (0 : Fin 2) * 10000 + 1 * p.val = r.val; rw [e0, hr]; omega
  | ⟨1, _⟩ => show win1_1.index t (1 : Fin 2) * 64 + 1 * k.val = k.val; rw [e1]; omega

/-- Window 2's block at every point is the whole matrix applied to the summed neighbours in the second layer. -/
theorem blk1_2 (c : Dev nD) (t : Fin cfg1.N) (k q : Fin 64) :
    (iblk1 V c 2 t : Vec Ideal S64x64 .f32) (ix2 k q) = (V c main_v28 : S64x64.Idx → EReal) (ix2 k q) := by
  unfold iblk1
  rw [View.read_apply]
  show (V c main_v28 : S64x64.Idx → EReal) _ = _
  refine congrArg (V c main_v28 : S64x64.Idx → EReal) ?_
  funext a
  apply Fin.ext
  obtain ⟨-, -, -, -, e0, e1, -⟩ := idx1 t
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Window 3's block at every point is the second layer's whole bias row. -/
theorem blk1_3 (c : Dev nD) (t : Fin cfg1.N) (q : Fin 64) :
    (iblk1 V c 3 t : Vec Ideal S1x64 .f32) (ix2 (0 : Fin 1) q) = (V c main_v30 : S1x64.Idx → EReal) (ix2 (0 : Fin 1) q) := by
  unfold iblk1
  rw [View.read_apply]
  show (V c main_v30 : S1x64.Idx → EReal) _ = _
  refine congrArg (V c main_v30 : S1x64.Idx → EReal) ?_
  funext a
  apply Fin.ext
  obtain ⟨-, -, -, -, -, -, e0, e1, -⟩ := idx1 t
  match a with
  | ⟨0, _⟩ => show win1_3.index t (0 : Fin 2) * 1 + 1 * 0 = 0; rw [e0]
  | ⟨1, _⟩ => show win1_3.index t (1 : Fin 2) * 64 + 1 * q.val = q.val; rw [e1]; omega

/-- Window 4's block at every point is the whole matrix applied to the node's own row in the second layer. -/
theorem blk1_4 (c : Dev nD) (t : Fin cfg1.N) (k q : Fin 64) :
    (iblk1 V c 4 t : Vec Ideal S64x64 .f32) (ix2 k q) = (V c main_v29 : S64x64.Idx → EReal) (ix2 k q) := by
  unfold iblk1
  rw [View.read_apply]
  show (V c main_v29 : S64x64.Idx → EReal) _ = _
  refine congrArg (V c main_v29 : S64x64.Idx → EReal) ?_
  funext a
  apply Fin.ext
  obtain ⟨-, -, -, -, -, -, -, -, e0, e1, -⟩ := idx1 t
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- The second layer of the arrays the second launch finds: what its result array will hold. -/
def G1 (c : Dev nD) : S100000x64.Idx → EReal :=
  layerLin (V c main_v27 : S100000x64.Idx → EReal) (V c main_v17 : S100000x64.Idx → EReal)
    (V c main_v28 : S64x64.Idx → EReal) (V c main_v29 : S64x64.Idx → EReal)
    (fun q => (V c main_v30 : S1x64.Idx → EReal) (ix2 (0 : Fin 1) q))

/-- What point t writes back is block t of the second layer of the arrays the launch finds. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e0, e1⟩ := idx1 t
  have h0 : ((((cfg1.win 5).blk t).view.emb (ix2 p q) : S100000x64.Idx) 0).val = t.val * 10000 + p.val := by
    show win1_5.index t (0 : Fin 2) * 10000 + 1 * p.val = _; rw [e0]; omega
  have h1 : (((cfg1.win 5).blk t).view.emb (ix2 p q) : S100000x64.Idx) 1 = q := by
    apply Fin.ext; show win1_5.index t (1 : Fin 2) * 64 + 1 * q.val = q.val; rw [e1]; omega
  show k1_pay1 (F := Ideal) (iblk1 V c 0 t) (iblk1 V c 1 t) (iblk1 V c 2 t) (iblk1 V c 4 t) (iblk1 V c 3 t) (ix2 p q)
    = layerLin (V c main_v27 : S100000x64.Idx → EReal) (V c main_v17 : S100000x64.Idx → EReal)
        (V c main_v28 : S64x64.Idx → EReal) (V c main_v29 : S64x64.Idx → EReal)
        (fun q => (V c main_v30 : S1x64.Idx → EReal) (ix2 (0 : Fin 1) q)) (((cfg1.win 5).blk t).view.emb (ix2 p q))
  exact lin_block (V c main_v27 : S100000x64.Idx → EReal) (V c main_v17 : S100000x64.Idx → EReal)
    (V c main_v28 : S64x64.Idx → EReal) (V c main_v29 : S64x64.Idx → EReal)
    (fun q => (V c main_v30 : S1x64.Idx → EReal) (ix2 (0 : Fin 1) q)) (iblk1 V c 0 t) (iblk1 V c 1 t) (iblk1 V c 2 t) (iblk1 V c 4 t) (iblk1 V c 3 t) p q
    (((cfg1.win 5).blk t).view.emb (ix2 p q))
    (fun k => blk1_0 V c t p k _ h0) (fun k => blk1_1 V c t p k _ h0)
    (fun k q => blk1_2 V c t k q) (fun k q => blk1_4 V c t k q) (fun q => blk1_3 V c t q) h1

/-- An index is in point t's block of the result array iff its coordinates are in the block's ranges. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v31).slice (win1_5.rect t)).set ↔ _
  rw [View.set_slice_whole, Rect.mem_set_unit]
  exact Iff.rfl

/-- After the second launch its result array is the second layer of the arrays it found: the ten row blocks tile it. -/
theorem final1 (c : Dev nD) : (dat1 V c).arrAt 5 cfg1.N = G1 V c :=
  (dat1 V c).arrAt_eq_of_cover 5 (G1 V c) (fun t _ => flushed1_eq V c t) fun i => by
    have hi0 : (i 0).val < 100000 := (i 0).isLt
    have hi1 : (i 1).val < 64 := (i 1).isLt
    have hN : cfg1.N = 10 := N_1
    refine ⟨⟨(i 0).val / 10000, by rw [hN]; omega⟩, flush1_5 _, ?_⟩
    rw [mem_blk1]
    obtain ⟨-, -, -, -, -, -, -, -, -, -, e0, e1⟩ := idx1 ⟨(i 0).val / 10000, by rw [hN]; omega⟩
    intro a
    match a with
    | ⟨0, _⟩ =>
      show win1_5.index _ (0 : Fin 2) * 10000 ≤ (i 0).val ∧ (i 0).val < win1_5.index _ (0 : Fin 2) * 10000 + 10000
      rw [e0]; show (i 0).val / 10000 * 10000 ≤ (i 0).val ∧ (i 0).val < (i 0).val / 10000 * 10000 + 10000; omega
    | ⟨1, _⟩ =>
      show win1_5.index _ (1 : Fin 2) * 64 ≤ (i 1).val ∧ (i 1).val < win1_5.index _ (1 : Fin 2) * 64 + 64
      rw [e1]; omega

end Cert.KernelIdeal.Arrays

end
-- ==== Proof.RefLayers.lean ====
/-
  The reference's two layers, stage by stage, as the node updates of whole arrays.

  The reference computes each layer on whole 100000 × 64 arrays: two matrix products and a bias broadcast added
  up, then (first layer only) a clamp at zero, the row sums of squares, their square roots kept as a column,
  the larger of that and the small constant broadcast back along the rows, and the quotient. Read at an entry
  (r, q) each stage depends on row r only, and the composition is the node update of row r: the products are finite
  sums over the 64 features, the two broadcasts of the bias read entry q of the bias vector, the host sum from the
  initial value zero is the finite sum, the kept column is read at its row.
-/
import proofs.«107074_j85873576117016_1_alg».proof.Proof.Gen.ReferenceIdeal.Read
import proofs.«107074_j85873576117016_1_alg».proof.Proof.SageRows

noncomputable section

namespace Cert.ReferenceIdeal.Layers

open Cert.ReferenceIdeal Cert.ReferenceIdeal.Gen Cert.ReferenceIdeal.Read
open Idealize.ShloMosaic Idealize.ShloMosaic.ValueIdx Cert.Sage
open scoped BigOperators

/-- Two indices of a two-axis array with equal coordinates are equal. -/
theorem idx2_ext {a b : Nat} (f g : (⟨2, ![a, b]⟩ : Shape).Idx) (h0 : (f 0).val = (g 0).val) (h1 : (f 1).val = (g 1).val) :
    f = g :=
  funext fun d => Fin.ext (by match d with | ⟨0, _⟩ => exact h0 | ⟨1, _⟩ => exact h1)

/-- Two indices of a one-axis array with equal coordinate are equal. -/
theorem idx1_ext {a : Nat} (f g : (⟨1, ![a]⟩ : Shape).Idx) (h : (f 0).val = (g 0).val) : f = g :=
  funext fun d => Fin.ext (by match d with | ⟨0, _⟩ => exact h)

/-- The first layer on whole arrays read at entry (r, q): the node update of row r, entry q. -/
theorem layerAct_at (A X : Nodes.Idx → EReal) (WL WR : Wts.Idx → EReal) (B : Fin 64 → EReal) (r : Fin 100000) (q : Fin 64) :
    layerAct A X WL WR B (ix2 r q) = act (lin (rowOf A r) (rowOf X r) (matOf WL) (matOf WR) B) q := rfl

/-- The second layer on whole arrays read at entry (r, q). -/
theorem layerLin_at (A X : Nodes.Idx → EReal) (WL WR : Wts.Idx → EReal) (B : Fin 64 → EReal) (r : Fin 100000) (q : Fin 64) :
    layerLin A X WL WR B (ix2 r q) = lin (rowOf A r) (rowOf X r) (matOf WL) (matOf WR) B q := rfl

variable (x0 : (⟨S100000x64, .f32⟩ : BufTy).Contents (Elt Ideal)) (x1 : (⟨S2x1600000, .i32⟩ : BufTy).Contents (Elt Ideal))
  (x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 : (⟨S64x64, .f32⟩ : BufTy).Contents (Elt Ideal))

/-- The first layer's row update at row `r`, as the reference's stages give it. -/
abbrev row1 (r : Fin 100000) : Fin 64 → EReal :=
  lin (rowOf (val_main_v13 (F := Ideal) x0 x1) r) (rowOf x0 r) (matOf (val_main_v14 (F := Ideal) x3))
    (matOf (val_main_v19 (F := Ideal) x5)) (fun q => x4 (ix1 q))

/-- The first layer before the clamp, at entry (r, q): the affine update of row r. -/
theorem affine1 (r : Fin 100000) (q : Fin 64) :
    val_main_v21 (F := Ideal) x0 x1 x3 x4 x5 (ix2 r q) = row1 x0 x1 x3 x4 x5 r q := by
  rw [val_main_v21_apply, val_main_v18_apply, val_main_v15_apply, val_main_v20_apply, val_main_v17_apply,
    val_main_v16_apply]
  have el : ∀ k : Fin 64, lidx_main_v15 (ix2 r q) k = ix2 r k := fun k => idx2_ext _ _ rfl rfl
  have er : ∀ k : Fin 64, ridx_main_v15 (ix2 r q) k = ix2 k q := fun k => idx2_ext _ _ rfl rfl
  have el' : ∀ k : Fin 64, lidx_main_v20 (ix2 r q) k = ix2 r k := fun k => idx2_ext _ _ rfl rfl
  have er' : ∀ k : Fin 64, ridx_main_v20 (ix2 r q) k = ix2 k q := fun k => idx2_ext _ _ rfl rfl
  have eb : idx_main_v16 (idx_main_v17 (ix2 r q)) = ix1 q := idx1_ext _ _ rfl
  simp only [el, er, el', er', eb]
  rfl

/-- The first layer after the clamp, at entry (r, q). -/
theorem relu1 (r : Fin 100000) (q : Fin 64) :
    val_main_v22 (F := Ideal) x0 x1 x3 x4 x5 (ix2 r q) = max (row1 x0 x1 x3 x4 x5 r q) zeroWord := by
  rw [val_main_v22_apply, affine1, val_main_call0_v0_apply]
  rfl

/-- The row sum of squares of the clamped first layer at row r. -/
theorem sumsq1 (r : Fin 100000) :
    val_main_call1_v1 (F := Ideal) x0 x1 x3 x4 x5 (ix1 r)
      = ∑ k : Fin 64, max (row1 x0 x1 x3 x4 x5 r k) zeroWord * max (row1 x0 x1 x3 x4 x5 r k) zeroWord := by
  rw [val_main_call1_v1_apply]
  rw [show (val_main_call1_cst (F := Ideal)) (Shape.Idx.first h_S_) = 0 from Ideal.ofBits_zero_f32, zero_add]
  refine Finset.sum_congr rfl fun k _ => ?_
  rw [val_main_call1_v0_apply, show idx_main_call1_v1 (ix1 r) k = ix2 r k from idx2_ext _ _ rfl rfl, relu1]
  rfl

/-- The reference's first layer is the clamp-and-normalise node update of every row. -/
theorem layer1_eq :
    val_main_v27 (F := Ideal) x0 x1 x3 x4 x5
      = layerAct (val_main_v13 (F := Ideal) x0 x1) x0 (val_main_v14 (F := Ideal) x3) (val_main_v19 (F := Ideal) x5)
          (fun q => x4 (ix1 q)) := by
  funext i
  obtain ⟨r, q, rfl⟩ : ∃ (r : Fin 100000) (q : Fin 64), i = ix2 r q := ⟨i 0, i 1, eq_ix2 i⟩
  rw [val_main_v27_apply, val_main_v26_apply, val_main_v25_apply, val_main_v24_apply, val_main_v23_apply,
    val_main_call1_v2_apply, relu1]
  rw [show idx_main_call1_v2 (idx_main_v26 (ix2 r q)) = ix1 r from idx1_ext _ _ rfl, sumsq1]
  rw [val_main_cst_1_apply]
  simp only [Ideal.hostDivf_def, Ideal.maximumf_def, Ideal.hostUnary_sqrt_def, Ideal.ofBits_def]
  exact (layerAct_at _ _ _ _ _ r q).symm

/-- The reference's second layer is the affine node update of every row of the first layer's result and of its
    summed-neighbour array. -/
theorem layer2_eq :
    val_main_v45 (F := Ideal) x0 x1 x3 x4 x5 x6 x7 x8
      = layerLin (val_main_v37 (F := Ideal) x0 x1 x3 x4 x5) (val_main_v27 (F := Ideal) x0 x1 x3 x4 x5)
          (val_main_v38 (F := Ideal) x6) (val_main_v43 (F := Ideal) x8) (fun q => x7 (ix1 q)) := by
  funext j
  obtain ⟨r, q, rfl⟩ : ∃ (r : Fin 100000) (q : Fin 64), j = ix2 r q := ⟨j 0, j 1, eq_ix2 j⟩
  rw [val_main_v45_apply, val_main_v42_apply, val_main_v39_apply, val_main_v44_apply, val_main_v41_apply,
    val_main_v40_apply]
  have el : ∀ k : Fin 64, lidx_main_v39 (ix2 r q) k = ix2 r k := fun k => idx2_ext _ _ rfl rfl
  have er : ∀ k : Fin 64, ridx_main_v39 (ix2 r q) k = ix2 k q := fun k => idx2_ext _ _ rfl rfl
  have el' : ∀ k : Fin 64, lidx_main_v44 (ix2 r q) k = ix2 r k := fun k => idx2_ext _ _ rfl rfl
  have er' : ∀ k : Fin 64, ridx_main_v44 (ix2 r q) k = ix2 k q := fun k => idx2_ext _ _ rfl rfl
  have eb : idx_main_v40 (idx_main_v41 (ix2 r q)) = ix1 q := idx1_ext _ _ rfl
  simp only [el, er, el', er', eb]
  refine Eq.trans ?_ (layerLin_at _ _ _ _ _ r q).symm
  rfl

end Cert.ReferenceIdeal.Layers

end
-- ==== Proof.KernelValue.lean ====
/-
  The kernel program's result as one function of its arguments.

  Follow the buffer contents from the launch memory. Before the first launch the host operations sum each node's
  neighbour rows (a gather along the edge list followed by a scatter-add), transpose the two weight matrices and
  lay the bias out as a row; these are the same operations, on the same arguments, as the reference's first stages.
  The first launch leaves the first layer of those arrays in its result buffer, which is therefore the reference's
  first-layer stage. The host operations between the launches repeat the neighbour sum on that buffer and prepare
  the second layer's matrices and bias, again as the reference does; the second launch leaves the second layer of
  those arrays, which is the reference's last stage, in the program's result buffer.
-/
import proofs.«107074_j85873576117016_1_alg».proof.Proof.KernelArrays
import proofs.«107074_j85873576117016_1_alg».proof.Proof.RefLayers
import Idealize.ShloMosaic.Lib.StableHlo.Run
import Idealize.ShloMosaic.Lib.ValueLayout

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Sage
open Cert.ReferenceIdeal.Read

variable (m : (ℓ : Loc nD τ sig) → Buf (Elt Ideal) ℓ) (ρ : Dev nD → PrngReg)

/-! ## Entering the first launch -/

/-- The summed-neighbour array of the first layer is the reference's. -/
theorem V1_v13 (c : Dev nD) :
    (V1 m ρ c main_v13 : S100000x64.Idx → EReal) = val_main_v13 (F := Ideal) (m ((c.tc : Thread nD τ).loc main_arg0)) (m ((c.tc : Thread nD τ).loc main_arg1)) := by
  show StableHlo.after hostOps0 (W0 m ρ c) (Proc.devRef .tc main_v13) = _
  after_results
  rfl

/-- The node array is the first argument. -/
theorem V1_arg0 (c : Dev nD) : (V1 m ρ c main_arg0 : S100000x64.Idx → EReal) = (m ((c.tc : Thread nD τ).loc main_arg0)) := by
  show StableHlo.after hostOps0 (W0 m ρ c) (Proc.devRef .tc main_arg0) = _
  after_results

/-- The two transposed weight matrices are the reference's. -/
theorem V1_v14 (c : Dev nD) : (V1 m ρ c main_v14 : S64x64.Idx → EReal) = val_main_v14 (F := Ideal) (m ((c.tc : Thread nD τ).loc main_arg3)) := by
  show StableHlo.after hostOps0 (W0 m ρ c) (Proc.devRef .tc main_v14) = _
  after_results
  rfl
theorem V1_v15 (c : Dev nD) : (V1 m ρ c main_v15 : S64x64.Idx → EReal) = val_main_v19 (F := Ideal) (m ((c.tc : Thread nD τ).loc main_arg5)) := by
  show StableHlo.after hostOps0 (W0 m ρ c) (Proc.devRef .tc main_v15) = _
  after_results
  rfl

/-- The bias laid out as a row reads, at its entry q, the bias vector at q. -/
theorem V1_v16 (c : Dev nD) (q : Fin 64) :
    (V1 m ρ c main_v16 : S1x64.Idx → EReal) (ix2 (0 : Fin 1) q) = (m ((c.tc : Thread nD τ).loc main_arg4)) (ix1 q) := by
  have e : (V1 m ρ c main_v16 : S1x64.Idx → EReal) = shapeCast S1x64 (m ((c.tc : Thread nD τ).loc main_arg4)) shapeCasts_S64_S1x64 := by
    show StableHlo.after hostOps0 (W0 m ρ c) (Proc.devRef .tc main_v16) = _
    after_results
    rfl
  rw [e]
  exact shapeCast_a_1a_apply _ _ _ _

/-! ## After the first launch -/

/-- The first launch's result buffer holds the first layer of the arrays the launch found. -/
theorem W2_v17_arr (c : Dev nD) :
    W2 m ρ c (Proc.devRef .tc main_v17) = Arrays.G0 (V1 m ρ) c :=
  (W2_arr m ρ c 5).trans (Arrays.final0 (V1 m ρ) c)

/-- The first layer of the arrays the first launch finds is the reference's first-layer stage. -/
theorem G0_eq (c : Dev nD) :
    Arrays.G0 (V1 m ρ) c = val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have hb : (fun q => (V1 m ρ c main_v16 : S1x64.Idx → EReal) (ix2 (0 : Fin 1) q)) = fun q => (m ((c.tc : Thread nD τ).loc main_arg4)) (ix1 q) :=
    funext fun q => V1_v16 m ρ c q
  show layerAct (V1 m ρ c main_v13 : S100000x64.Idx → EReal) (V1 m ρ c main_arg0 : S100000x64.Idx → EReal)
      (V1 m ρ c main_v14 : S64x64.Idx → EReal) (V1 m ρ c main_v15 : S64x64.Idx → EReal)
      (fun q => (V1 m ρ c main_v16 : S1x64.Idx → EReal) (ix2 (0 : Fin 1) q)) = _
  rw [hb, V1_v13, V1_arg0, V1_v14, V1_v15]
  exact (Cert.ReferenceIdeal.Layers.layer1_eq _ _ _ _ _).symm

/-- The first launch's result buffer holds the reference's first-layer stage. -/
theorem W2_v17 (c : Dev nD) :
    (W2 m ρ c (Proc.devRef .tc main_v17) : S100000x64.Idx → EReal) = val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  exact (W2_v17_arr m ρ c).trans (G0_eq m ρ c)

/-- The edges' source and destination lists are no array of the first launch: they are as the first stretch left
    them, which is as the reference computes them. -/
theorem W2_v1 (c : Dev nD) :
    (W2 m ρ c (Proc.devRef .tc main_v1) : S1600000.Idx → BitVec 32) = val_main_v1 (F := Ideal) (m ((c.tc : Thread nD τ).loc main_arg1)) := by
  refine (W2_of_ne m ρ c main_v1 (by decide)).trans ?_
  show StableHlo.after hostOps0 (W0 m ρ c) (Proc.devRef .tc main_v1) = _
  after_results
  rfl
theorem W2_v3 (c : Dev nD) :
    (W2 m ρ c (Proc.devRef .tc main_v3) : S1600000.Idx → BitVec 32) = val_main_v3 (F := Ideal) (m ((c.tc : Thread nD τ).loc main_arg1)) := by
  refine (W2_of_ne m ρ c main_v3 (by decide)).trans ?_
  show StableHlo.after hostOps0 (W0 m ρ c) (Proc.devRef .tc main_v3) = _
  after_results
  rfl

/-- The second layer's three arguments pass through the first stretch and the first launch untouched. -/
theorem W2_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results
theorem W2_arg7 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results
theorem W2_arg8 (c : Dev nD) : W2 m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results

/-! ## Entering the second launch -/

/-- The summed-neighbour array of the second layer is the reference's: the same gather and scatter-add, along the
    same edge lists, of the same first-layer result. -/
theorem V3_v27 (c : Dev nD) :
    (V3 m ρ c main_v27 : S100000x64.Idx → EReal) = val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps1 (W2 m ρ c) (Proc.devRef .tc main_v27) = _
  after_results
  rw [W2_v17, W2_v1, W2_v3]
  rfl

/-- The second stretch does not write the first launch's result buffer. -/
theorem V3_v17 (c : Dev nD) :
    (V3 m ρ c main_v17 : S100000x64.Idx → EReal) = val_main_v27 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps1 (W2 m ρ c) (Proc.devRef .tc main_v17) = _
  after_results
  exact W2_v17 m ρ c

/-- The second layer's transposed weight matrices are the reference's. -/
theorem V3_v28 (c : Dev nD) : (V3 m ρ c main_v28 : S64x64.Idx → EReal) = val_main_v38 (F := Ideal) (m ((c.tc : Thread nD τ).loc main_arg6)) := by
  show StableHlo.after hostOps1 (W2 m ρ c) (Proc.devRef .tc main_v28) = _
  after_results
  rw [W2_arg6]
  rfl
theorem V3_v29 (c : Dev nD) : (V3 m ρ c main_v29 : S64x64.Idx → EReal) = val_main_v43 (F := Ideal) (m ((c.tc : Thread nD τ).loc main_arg8)) := by
  show StableHlo.after hostOps1 (W2 m ρ c) (Proc.devRef .tc main_v29) = _
  after_results
  rw [W2_arg8]
  rfl

/-- The second layer's bias laid out as a row reads, at its entry q, the bias vector at q. -/
theorem V3_v30 (c : Dev nD) (q : Fin 64) :
    (V3 m ρ c main_v30 : S1x64.Idx → EReal) (ix2 (0 : Fin 1) q) = (m ((c.tc : Thread nD τ).loc main_arg7)) (ix1 q) := by
  have e : (V3 m ρ c main_v30 : S1x64.Idx → EReal) = shapeCast S1x64 (m ((c.tc : Thread nD τ).loc main_arg7)) shapeCasts_S64_S1x64 := by
    show StableHlo.after hostOps1 (W2 m ρ c) (Proc.devRef .tc main_v30) = _
    after_results
    rw [W2_arg7]
    rfl
  rw [e]
  exact shapeCast_a_1a_apply _ _ _ _

/-! ## After the second launch -/

/-- The program's result buffer holds the second layer of the arrays the second launch found. -/
theorem W4_v31_arr (c : Dev nD) :
    W4 m ρ c (Proc.devRef .tc main_v31) = Arrays.G1 (V3 m ρ) c :=
  (W4_arr m ρ c 5).trans (Arrays.final1 (V3 m ρ) c)

/-- The second layer of the arrays the second launch finds is the reference's last stage. -/
theorem G1_eq (c : Dev nD) :
    Arrays.G1 (V3 m ρ) c = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hb : (fun q => (V3 m ρ c main_v30 : S1x64.Idx → EReal) (ix2 (0 : Fin 1) q)) = fun q => (m ((c.tc : Thread nD τ).loc main_arg7)) (ix1 q) :=
    funext fun q => V3_v30 m ρ c q
  show layerLin (V3 m ρ c main_v27 : S100000x64.Idx → EReal) (V3 m ρ c main_v17 : S100000x64.Idx → EReal)
      (V3 m ρ c main_v28 : S64x64.Idx → EReal) (V3 m ρ c main_v29 : S64x64.Idx → EReal)
      (fun q => (V3 m ρ c main_v30 : S1x64.Idx → EReal) (ix2 (0 : Fin 1) q)) = _
  rw [hb, V3_v27, V3_v17, V3_v28, V3_v29]
  exact (Cert.ReferenceIdeal.Layers.layer2_eq _ _ _ _ _ _ _ _).symm

/-- The program's result buffer holds the reference's last stage of the same arguments. -/
theorem result (c : Dev nD) :
    (W4 m ρ c (Proc.devRef .tc main_v31) : S100000x64.Idx → EReal)
      = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  exact (W4_v31_arr m ρ c).trans (G1_eq m ρ c)

end Cert.KernelIdeal.Result

end
-- ==== Proof.lean ====
/-
  Two layers of a sum-aggregating graph network on 100000 nodes with 64 features, computed two ways.

  Both programs first sum, for every node, the feature rows of its in-neighbours along the edge list (a gather
  followed by a scatter-add) and then update every node by  a · Wl + b + x · Wr  from its summed row a and its own row
  x; the first layer clamps the update at zero and divides each row by the larger of its Euclidean norm and a small
  constant, and the second layer repeats the neighbour sum and the affine update on the first layer's result. The
  reference does each update on whole arrays; the kernel program does it in two launches over ten blocks of 10000
  rows, with the neighbour sums, the transposes and the bias layout done around the launches.

  At exact arithmetic on the extended reals the two agree entry by entry with no algebra beyond reading each
  operation at an index: a matrix product into a zero accumulator and the host's product are the same finite sum
  over the 64 features, a lane sum and the host's sum from zero are the same finite sum over a row, both clamps,
  square roots and quotients are the same operations in the same order on the same constants, and the neighbour sums
  are literally the same operations on equal arrays. Since an update of a row reads that row only, the ten row
  blocks of a launch assemble into the whole-array update, and the first launch's result is the reference's
  first-layer array — which is what makes the second neighbour sum, and then the second layer, agree. No finiteness
  of the inputs is used.
-/
import proofs.«107074_j85873576117016_1_alg».proof.Defs
import proofs.«107074_j85873576117016_1_alg».proof.Proof.Gen.Kernel
import proofs.«107074_j85873576117016_1_alg».proof.Proof.Gen.Kernel.Skeleton
import proofs.«107074_j85873576117016_1_alg».proof.Proof.Gen.Kernel.Launch
import proofs.«107074_j85873576117016_1_alg».proof.Proof.Gen.Kernel.Points
import proofs.«107074_j85873576117016_1_alg».proof.Proof.Gen.Kernel.Frame
import proofs.«107074_j85873576117016_1_alg».proof.Proof.Gen.KernelIdeal
import proofs.«107074_j85873576117016_1_alg».proof.Proof.Gen.KernelIdeal.Skeleton
import proofs.«107074_j85873576117016_1_alg».proof.Proof.Gen.KernelIdeal.Launch
import proofs.«107074_j85873576117016_1_alg».proof.Proof.Gen.KernelIdeal.Points
import proofs.«107074_j85873576117016_1_alg».proof.Proof.Gen.KernelIdeal.Frame
import proofs.«107074_j85873576117016_1_alg».proof.Proof.Gen.ReferenceIdeal
import proofs.«107074_j85873576117016_1_alg».proof.Proof.Gen.Pre_finite_inputs
import proofs.«107074_j85873576117016_1_alg».proof.Proof.Gen.ReferenceIdeal.Run
import proofs.«107074_j85873576117016_1_alg».proof.Proof.Gen.ReferenceIdeal.Read
import proofs.«107074_j85873576117016_1_alg».proof.Proof.KernelRun
import proofs.«107074_j85873576117016_1_alg».proof.Proof.KernelValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading at exact arithmetic. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the printed kernel program and its exact reading. -/
theorem preserves : Cert.preserves_Kernel_KernelIdeal := trivial

/-- From memories agreeing on the nine arguments both programs end with the same result array: the kernel program's
    result buffer holds the reference's last stage of its own arguments, the reference's result is that stage of
    its arguments, and the arguments agree. -/
theorem algebraic : Cert.algebraic_KernelIdeal_ReferenceIdeal := by
  intro m ρ m' ρ' _ hagree
  refine ⟨fun c => Cert.KernelIdeal.Gen.W4 m ρ c (Proc.devRef .tc Cert.KernelIdeal.main_v31),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v45 m' c
    = Cert.KernelIdeal.Gen.W4 m ρ c (Proc.devRef .tc Cert.KernelIdeal.main_v31)
  obtain ⟨h0, h1, -, h3, h4, h5, h6, h7, h8⟩ := hagree c
  rw [Cert.ReferenceIdeal.Read.val_main_v45_eq, Cert.KernelIdeal.Result.result, h0, h1, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
